-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x2048 : Shape := ⟨2, ![2048, 2048]⟩
abbrev S2048x1 : Shape := ⟨2, ![2048, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part4 {F : FTy → Type} [FloatOps F] (main_arg14 : FVec F S2048x1 .f32) (main_v63 : IVec S_ 1) (main_v67 : IVec S_ 1) : IVec S_ 1 :=
  let main_v68 : IVec S_ 1 := andi main_v63 main_v67
  let main_v69 : FVec F S2048x1 .f32 := Host.absf main_arg14
  let main_cst_26 : FVec F S_ .f32 := constant S_ .f32 0x7F800000#32
  let main_v70 : FVec F S2048x1 .f32 := broadcastInDim S2048x1 ![] bcast_S_S2048x1 main_cst_26
  let main_v71 : IVec S2048x1 1 := cmpf .olt main_v69 main_v70
  let main_c_27 : IVec S_ 1 := constantI S_ 1 1#1
  let main_v72 : IVec S_ 1 := (fun x v => Host.reduce IntOp.andi x v reducesTo_S2048x1_S_d0_1 h_S_) main_v71 main_c_27
  let main_v73 : IVec S_ 1 := andi main_v68 main_v72
  main_v73

def fn_part3 {F : FTy → Type} [FloatOps F] (main_arg11 : FVec F S2048x1 .f32) (main_arg12 : FVec F S2048x1 .f32) (main_arg13 : FVec F S2048x1 .f32) (main_arg14 : FVec F S2048x1 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x1 .f32 := Host.absf main_arg11
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S2048x1 .f32 := Host.absf main_arg12
  let main_cst_22 : FVec F S_ .f32 := constant S_ .f32 0x7F800000#32
  let main_v60 : FVec F S2048x1 .f32 := broadcastInDim S2048x1 ![] bcast_S_S2048x1 main_cst_22
  let main_v61 : IVec S2048x1 1 := cmpf .olt main_v59 main_v60
  let main_c_23 : IVec S_ 1 := constantI S_ 1 1#1
  let main_v62 : IVec S_ 1 := (fun x v => Host.reduce IntOp.andi x v reducesTo_S2048x1_S_d0_1 h_S_) main_v61 main_c_23
  let main_v63 : IVec S_ 1 := andi main_v58 main_v62
  let main_v64 : FVec F S2048x1 .f32 := Host.absf main_arg13
  let main_cst_24 : FVec F S_ .f32 := constant S_ .f32 0x7F800000#32
  let main_v65 : FVec F S2048x1 .f32 := broadcastInDim S2048x1 ![] bcast_S_S2048x1 main_cst_24
  let main_v66 : IVec S2048x1 1 := cmpf .olt main_v64 main_v65
  let main_c_25 : IVec S_ 1 := constantI S_ 1 1#1
  let main_v67 : IVec S_ 1 := (fun x v => Host.reduce IntOp.andi x v reducesTo_S2048x1_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x4096 .f32) (main_arg1 : FVec F S2048x4096 .f32) (main_arg2 : FVec F S2048x4096 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048x1 .f32) (main_arg12 : FVec F S2048x1 .f32) (main_arg13 : FVec F S2048x1 .f32) (main_arg14 : FVec F S2048x1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x4096 : Shape := ⟨2, ![2048, 4096]⟩
abbrev S2048x2048 : Shape := ⟨2, ![2048, 2048]⟩
abbrev S2048x1 : Shape := ⟨2, ![2048, 1]⟩
abbrev S256x2048 : Shape := ⟨2, ![256, 2048]⟩
abbrev S256x1 : Shape := ⟨2, ![256, 1]⟩
abbrev S2048x512 : Shape := ⟨2, ![2048, 512]⟩
abbrev S256x512 : Shape := ⟨2, ![256, 512]⟩

abbrev nBuf : Space → Nat
  | .hbm => 26
  | .vmem => 32
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x4096, .bf16⟩
  | .hbm, ⟨16, _⟩ => ⟨S2048x4096, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S2048x512, .bf16⟩
  | .local _ .vmem, ⟨25, _⟩ => ⟨S2048x512, .bf16⟩
  | .local _ .vmem, ⟨26, _⟩ => ⟨S2048x512, .bf16⟩
  | .local _ .vmem, ⟨27, _⟩ => ⟨S2048x512, .bf16⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .bf16 = 32 ∨ (Rect.block (s := S2048x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S2048x1.size a
  hwx0_8 : ∀ i : grid0.Coords, EltTy.bits .f32 = 32 ∨ (Rect.block (s := S2048x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S2048x1.size a
  hwx0_9 : ∀ i : grid0.Coords, EltTy.bits .f32 = 32 ∨ (Rect.block (s := S2048x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S2048x1.size a
  hwx0_10 : ∀ i : grid0.Coords, EltTy.bits .f32 = 32 ∨ (Rect.block (s := S2048x1) S256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S2048x1.size a
  hwx0_11 : ∀ i : grid0.Coords, EltTy.bits .f32 = 32 ∨ (Rect.block (s := S2048x1) S256x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x512.size a ≤ S2048x4096.size a
  hwx0_12 : ∀ i : grid0.Coords, EltTy.bits .bf16 = 32 ∨ (Rect.block (s := S2048x4096) S2048x512.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x512.size a ≤ S2048x4096.size a
  hwx0_13 : ∀ i : grid0.Coords, EltTy.bits .bf16 = 32 ∨ (Rect.block (s := S2048x4096) S2048x512.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S2048x4096.size a
  hwx0_14 : ∀ i : grid0.Coords, EltTy.bits .f32 = 32 ∨ (Rect.block (s := S2048x4096) S256x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S2048x4096.size a
  hwx0_15 : ∀ i : grid0.Coords, EltTy.bits .f32 = 32 ∨ (Rect.block (s := S2048x4096) S256x512.size (cc0_transform_15 i) (hinb0_15 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S256x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S2048x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1) S2048x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S256x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10) S256x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2048x2048 : Shape := ⟨2, ![2048, 2048]⟩
abbrev S2048x1 : Shape := ⟨2, ![2048, 1]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S2048x4096, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S2048x4096, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048x4096, .f32⟩
  | .hbm, ⟨56, _⟩ => ⟨S2048x4096, .f32⟩
  | .hbm, ⟨57, _⟩ => ⟨S_, .f32⟩
  | .hbm, ⟨58, _⟩ => ⟨S2048x4096, .f32⟩
  | .hbm, ⟨59, _⟩ => ⟨S2048x4096, .f32⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S2048x4096, .f32⟩
  | .hbm, ⟨64, _⟩ => ⟨S2048x4096, .f32⟩
  | .hbm, ⟨65, _⟩ => ⟨S_, .f32⟩
  | .hbm, ⟨66, _⟩ => ⟨S2048x4096, .f32⟩
  | .hbm, ⟨67, _⟩ => ⟨S2048x4096, .f32⟩
  | .hbm, ⟨68, _⟩ => ⟨S_, .f32⟩
  | .hbm, ⟨69, _⟩ => ⟨S2048x4096, .f32⟩
  | .hbm, ⟨70, _⟩ => ⟨S2048x4096, .f32⟩
  | .hbm, ⟨71, _⟩ => ⟨S2048x4096, .f32⟩
  | .hbm, ⟨72, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S2048x1_S2048x4096_0_1 : S2048x1.BroadcastsInDim S2048x4096 (![0, 1] : Fin 2 → Fin S2048x4096.rank)
  bcast_S_S2048x4096 : S_.BroadcastsInDim S2048x4096 (![] : Fin 0 → Fin S2048x4096.rank)
  dot_S2048x2048_S2048x4096_S2048x4096_1_0_0_1_n_n_wf : DotDims.WF S2048x2048 S2048x4096 S2048x4096 [1] [0] [0] [1] [] []

variable [Facts₀]

def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf

class Facts : Prop extends Facts₀ where

variable [Facts]
-- ==== Proof.LibLstmCell.lean ====
/-
  One step of a long short-term memory cell whose cell update passes through a sigmoid, index by index over the
  extended reals.

  The inputs are column batches: the new input `x` and the previous hidden state `h` are `[k, b]` (one column per batch
  element), the previous cell state `c` is `[a, b]`; each of the four gates has an input matrix `W : [a, k]`, a recurrent
  matrix `U : [a, k]` and a bias column `[a, 1]`. A gate's pre-activation at row `r` and column `q` is
  `(∑ f, W r f · x f q + ∑ f, U r f · h f q) + bias r`; with `g = tanh`, `i = f = o = σ` of their pre-activations the output is
  `tanh (σ (g · i + c · f)) · o`, where `σ t = 1 / (1 + e^(-t))` with the extended reals' conventions at the infinities.

  Two facts are proved here. The sigmoid written out with the word of `1.0` is `σ`. And the cell is LOCAL in rows and
  columns: entry `(r, q)` of the output uses row `r` of every weight matrix and bias, column `q` of `x` and `h`, and entry
  `(r, q)` of `c`, with the whole contraction axis — so the cell of a band of rows of the weights and a band of columns of
  the inputs is that rows-by-columns block of the cell of the whole arrays.
-/
import Idealize.ShloMosaic.Lib.ValueIdx
import Idealize.ShloMosaic.PureOps.Ideal.Laws

noncomputable section

open scoped BigOperators

namespace Cert.LstmCell

open Idealize.ShloMosaic Idealize.ShloMosaic.ValueIdx

/-- The single-precision word `0x3F800000` is the number one. -/
theorem ofBits_one : Ideal.ofBits .f32 0x3F800000#32 = 1 := by
  simp [Ideal.ofBits, Ideal.ieee, -EReal.coe_mul]; norm_num

/-- The sigmoid spelt with a negation, an exponential, a sum with the word of one and a quotient of that word is the
    sigmoid `1 / (1 + e^(-t))`. -/
theorem sigmoid_spelt (t : EReal) :
    Ideal.div (Ideal.ofBits .f32 0x3F800000#32) (Ideal.ofBits .f32 0x3F800000#32 + Ideal.exp (-t)) = Ideal.logistic t := by
  rw [ofBits_one]; rfl

variable {a k b : ℕ}

/-- A gate's pre-activation at row `r`, column `q`: row `r` of the input matrix against column `q` of `x`, plus row `r` of
    the recurrent matrix against column `q` of `h`, plus the bias of row `r`. -/
def pre (W U : (⟨2, ![a, k]⟩ : Shape).Idx → EReal) (bias : (⟨2, ![a, 1]⟩ : Shape).Idx → EReal)
    (x h : (⟨2, ![k, b]⟩ : Shape).Idx → EReal) (r : Fin a) (q : Fin b) : EReal :=
  (∑ f : Fin k, W (ix2 r f) * x (ix2 f q) + ∑ f : Fin k, U (ix2 r f) * h (ix2 f q)) + bias (ix2 r (0 : Fin 1))

/-- The cell's output at row `r`, column `q`: `tanh (σ (g · i + c · f)) · o` of the four gates there. -/
def outAt (Wg Wi Wf Wo Ug Ui Uf Uo : (⟨2, ![a, k]⟩ : Shape).Idx → EReal)
    (bg bi bf bo : (⟨2, ![a, 1]⟩ : Shape).Idx → EReal) (x h : (⟨2, ![k, b]⟩ : Shape).Idx → EReal)
    (c : (⟨2, ![a, b]⟩ : Shape).Idx → EReal) (r : Fin a) (q : Fin b) : EReal :=
  Ideal.tanh (Ideal.logistic (Ideal.tanh (pre Wg Ug bg x h r q) * Ideal.logistic (pre Wi Ui bi x h r q)
    + c (ix2 r q) * Ideal.logistic (pre Wf Uf bf x h r q))) * Ideal.logistic (pre Wo Uo bo x h r q)

/-- The cell's output as an array. -/
def out (Wg Wi Wf Wo Ug Ui Uf Uo : (⟨2, ![a, k]⟩ : Shape).Idx → EReal)
    (bg bi bf bo : (⟨2, ![a, 1]⟩ : Shape).Idx → EReal) (x h : (⟨2, ![k, b]⟩ : Shape).Idx → EReal)
    (c : (⟨2, ![a, b]⟩ : Shape).Idx → EReal) : (⟨2, ![a, b]⟩ : Shape).Idx → EReal :=
  fun j => outAt Wg Wi Wf Wo Ug Ui Uf Uo bg bi bf bo x h c (j 0) (j 1)

/-- The array at an index given by its coordinates. -/
theorem out_ix2 (Wg Wi Wf Wo Ug Ui Uf Uo : (⟨2, ![a, k]⟩ : Shape).Idx → EReal)
    (bg bi bf bo : (⟨2, ![a, 1]⟩ : Shape).Idx → EReal) (x h : (⟨2, ![k, b]⟩ : Shape).Idx → EReal)
    (c : (⟨2, ![a, b]⟩ : Shape).Idx → EReal) (r : Fin a) (q : Fin b) :
    out Wg Wi Wf Wo Ug Ui Uf Uo bg bi bf bo x h c (ix2 r q) = outAt Wg Wi Wf Wo Ug Ui Uf Uo bg bi bf bo x h c r q := rfl

variable {A B : ℕ}

/-- A pre-activation is local: with the weights' and the bias' rows taken through `eR` and the inputs' columns through
    `eQ`, the pre-activation of the bands at `(r, q)` is that of the whole arrays at `(eR r, eQ q)`. -/
theorem pre_band (eR : Fin a → Fin A) (eQ : Fin b → Fin B)
    (W U : (⟨2, ![A, k]⟩ : Shape).Idx → EReal) (bias : (⟨2, ![A, 1]⟩ : Shape).Idx → EReal)
    (x h : (⟨2, ![k, B]⟩ : Shape).Idx → EReal)
    (W' U' : (⟨2, ![a, k]⟩ : Shape).Idx → EReal) (bias' : (⟨2, ![a, 1]⟩ : Shape).Idx → EReal)
    (x' h' : (⟨2, ![k, b]⟩ : Shape).Idx → EReal)
    (hW : ∀ r f, W' (ix2 r f) = W (ix2 (eR r) f)) (hU : ∀ r f, U' (ix2 r f) = U (ix2 (eR r) f))
    (hb : ∀ r, bias' (ix2 r (0 : Fin 1)) = bias (ix2 (eR r) (0 : Fin 1)))
    (hx : ∀ f q, x' (ix2 f q) = x (ix2 f (eQ q))) (hh : ∀ f q, h' (ix2 f q) = h (ix2 f (eQ q)))
    (r : Fin a) (q : Fin b) : pre W' U' bias' x' h' r q = pre W U bias x h (eR r) (eQ q) := by
  unfold pre
  simp only [hW, hU, hb, hx, hh]

/-- The cell is local: the cell of a band of rows of the weights and biases, a band of columns of the inputs and the
    matching block of the cell state is, at `(r, q)`, the cell of the whole arrays at `(eR r, eQ q)`. -/
theorem outAt_band (eR : Fin a → Fin A) (eQ : Fin b → Fin B)
    (Wg Wi Wf Wo Ug Ui Uf Uo : (⟨2, ![A, k]⟩ : Shape).Idx → EReal)
    (bg bi bf bo : (⟨2, ![A, 1]⟩ : Shape).Idx → EReal) (x h : (⟨2, ![k, B]⟩ : Shape).Idx → EReal)
    (c : (⟨2, ![A, B]⟩ : Shape).Idx → EReal)
    (Wg' Wi' Wf' Wo' Ug' Ui' Uf' Uo' : (⟨2, ![a, k]⟩ : Shape).Idx → EReal)
    (bg' bi' bf' bo' : (⟨2, ![a, 1]⟩ : Shape).Idx → EReal) (x' h' : (⟨2, ![k, b]⟩ : Shape).Idx → EReal)
    (c' : (⟨2, ![a, b]⟩ : Shape).Idx → EReal)
    (hWg : ∀ r f, Wg' (ix2 r f) = Wg (ix2 (eR r) f)) (hWi : ∀ r f, Wi' (ix2 r f) = Wi (ix2 (eR r) f))
    (hWf : ∀ r f, Wf' (ix2 r f) = Wf (ix2 (eR r) f)) (hWo : ∀ r f, Wo' (ix2 r f) = Wo (ix2 (eR r) f))
    (hUg : ∀ r f, Ug' (ix2 r f) = Ug (ix2 (eR r) f)) (hUi : ∀ r f, Ui' (ix2 r f) = Ui (ix2 (eR r) f))
    (hUf : ∀ r f, Uf' (ix2 r f) = Uf (ix2 (eR r) f)) (hUo : ∀ r f, Uo' (ix2 r f) = Uo (ix2 (eR r) f))
    (hbg : ∀ r, bg' (ix2 r (0 : Fin 1)) = bg (ix2 (eR r) (0 : Fin 1)))
    (hbi : ∀ r, bi' (ix2 r (0 : Fin 1)) = bi (ix2 (eR r) (0 : Fin 1)))
    (hbf : ∀ r, bf' (ix2 r (0 : Fin 1)) = bf (ix2 (eR r) (0 : Fin 1)))
    (hbo : ∀ r, bo' (ix2 r (0 : Fin 1)) = bo (ix2 (eR r) (0 : Fin 1)))
    (hx : ∀ f q, x' (ix2 f q) = x (ix2 f (eQ q))) (hh : ∀ f q, h' (ix2 f q) = h (ix2 f (eQ q)))
    (hc : ∀ r q, c' (ix2 r q) = c (ix2 (eR r) (eQ q)))
    (r : Fin a) (q : Fin b) :
    outAt Wg' Wi' Wf' Wo' Ug' Ui' Uf' Uo' bg' bi' bf' bo' x' h' c' r q
      = outAt Wg Wi Wf Wo Ug Ui Uf Uo bg bi bf bo x h c (eR r) (eQ q) := by
  unfold outAt
  rw [pre_band eR eQ Wg Ug bg x h Wg' Ug' bg' x' h' hWg hUg hbg hx hh r q,
    pre_band eR eQ Wi Ui bi x h Wi' Ui' bi' x' h' hWi hUi hbi hx hh r q,
    pre_band eR eQ Wf Uf bf x h Wf' Uf' bf' x' h' hWf hUf hbf hx hh r q,
    pre_band eR eQ Wo Uo bo x h Wo' Uo' bo' x' h' hWo hUo hbo hx hh r q, hc r q]

end Cert.LstmCell

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.BlockCell.lean ====
/-
  What one grid point of the kernel computes, at the exact instance: the cell of its blocks.

  At a grid point the body holds a band of 256 rows of each of the eight weight matrices (`[256, 2048]`) and of the four
  bias columns (`[256, 1]`), a band of 512 columns of the input and of the previous hidden state (`[2048, 512]`, the whole
  contraction axis) and the matching `[256, 512]` block of the cell state. Each gate's pre-activation is two matrix
  products into zero accumulators, added, plus the bias column repeated along the lanes; over the extended reals a
  product into a zero accumulator is the plain sum over the contraction axis, so the pre-activation at `(p, q)` is
  `LstmCell.pre` of the blocks, and the stored value — `tanh (σ (g · i + c · f)) · o` — is `LstmCell.out` of the blocks.
-/
import proofs.«180417_j42803644072258_2_alg».proof.Proof.Gen.KernelIdeal.Skeleton
import proofs.«180417_j42803644072258_2_alg».proof.Proof.LibLstmCell
import proofs.«180417_j42803644072258_2_alg».proof.Proof.LibPlainMatmul
import proofs.«180417_j42803644072258_2_alg».proof.Proof.LibColumnBroadcast
import Idealize.ShloMosaic.Lib.Pipeline.Value

noncomputable section

open scoped BigOperators

namespace Cert.KernelIdeal.BlockCell

open Cert.KernelIdeal Cert.KernelIdeal.Gen Idealize.ShloMosaic Idealize.ShloMosaic.ValueIdx

/-- The dimension numbers of every product in the body: the left operand's columns against the right operand's rows. -/
abbrev D : DotDims S256x2048 S2048x512 S256x512 := dot_S256x2048_S2048x512_S256x512_1_0_0_1_n_n

/-- The left operand is read in the output's row … -/
theorem lhs_row (j : S256x512.Idx) (q : D.contr.Idx) : (D.lhsIdx j q 0).val = (j 0).val := by
  unfold DotDims.lhsIdx
  rw [dif_neg (show ¬(0 : Fin S256x2048.rank) ∈ D.lhsBatch by decide),
    dif_pos (show (0 : Fin S256x2048.rank) ∈ D.lhsNonContracting by decide)]
  rfl
/-- … at the contraction position; … -/
theorem lhs_col (j : S256x512.Idx) (q : D.contr.Idx) : (D.lhsIdx j q 1).val = (q ⟨0, by decide⟩).val :=
  D.lhsIdx_val_of_single rfl j q
/-- … the right operand at the contraction position … -/
theorem rhs_row (j : S256x512.Idx) (q : D.contr.Idx) : (D.rhsIdx j q 0).val = (q ⟨0, by decide⟩).val :=
  D.rhsIdx_val_of_single rfl j q
/-- … in the output's column. -/
theorem rhs_col (j : S256x512.Idx) (q : D.contr.Idx) : (D.rhsIdx j q 1).val = (j 1).val := by
  unfold DotDims.rhsIdx
  rw [dif_neg (show ¬(1 : Fin S2048x512.rank) ∈ D.rhsBatch by decide),
    dif_pos (show (1 : Fin S2048x512.rank) ∈ D.rhsNonContracting by decide)]
  rfl

/-- A gate's pre-activation as the body computes it on its blocks: the two products into zero accumulators, added, plus
    the bias column repeated along the lanes. -/
def preVec (W U : FVec Ideal S256x2048 .bf16) (bias : Vec Ideal S256x1 .f32) (X H : FVec Ideal S2048x512 .bf16) :
    FVec Ideal S256x512 .f32 :=
  addf (addf
      (matmul D none (shapeCast S256x2048 W shapeCasts_S256x2048_S256x2048) (shapeCast S2048x512 X shapeCasts_S2048x512_S2048x512)
        (constant S256x512 .f32 0x00000000#32))
      (matmul D none (shapeCast S256x2048 U shapeCasts_S256x2048_S256x2048) (shapeCast S2048x512 H shapeCasts_S2048x512_S2048x512)
        (constant S256x512 .f32 0x00000000#32)))
    (broadcastTo S256x512 bias broadcasts_S256x1_S256x512)

/-- A band of rows times a band of columns into a zero accumulator, at `(p, q)`: the sum over the contraction axis. -/
theorem product_apply (W : FVec Ideal S256x2048 .bf16) (X : FVec Ideal S2048x512 .bf16) (p : Fin 256) (q : Fin 512) :
    matmul D none (shapeCast S256x2048 W shapeCasts_S256x2048_S256x2048) (shapeCast S2048x512 X shapeCasts_S2048x512_S2048x512)
      (constant S256x512 .f32 0x00000000#32) (ix2 p q) = ∑ f : Fin 2048, W (ix2 p f) * X (ix2 f q) := by
  rw [shapeCast_self, shapeCast_self]
  exact Cert.PlainMatmul.matmul_zero_ix2_apply D rfl rfl lhs_row lhs_col rhs_row rhs_col none W X p q

/-- The body's pre-activation at `(p, q)` is the cell's, of the blocks. -/
theorem preVec_apply (W U : FVec Ideal S256x2048 .bf16) (bias : Vec Ideal S256x1 .f32) (X H : FVec Ideal S2048x512 .bf16)
    (p : Fin 256) (q : Fin 512) : preVec W U bias X H (ix2 p q) = Cert.LstmCell.pre W U bias X H p q := by
  unfold preVec Cert.LstmCell.pre
  rw [addf_apply, addf_apply, product_apply, product_apply,
    Cert.Lib.ColumnBroadcast.broadcastTo_a1_ab_apply bias broadcasts_S256x1_S256x512 p q]

/-- THE STORED VALUE of a grid point is the cell of its blocks: `x0 … x3` the input matrices' bands (gates g, i, f, o),
    `x4 … x7` the recurrent matrices' bands, `x8 … x11` the bias bands, `x12`, `x13` the column bands of the input and the
    hidden state, `x14` the block of the cell state. -/
theorem stored_eq (x0 x1 x2 x3 x4 x5 x6 x7 : Vec Ideal S256x2048 .bf16) (x8 x9 x10 x11 : Vec Ideal S256x1 .f32)
    (x12 x13 : Vec Ideal S2048x512 .bf16) (x14 : Vec Ideal S256x512 .f32) :
    k0_pay1 (k0_pay2 x12) (k0_pay3 x13) (k0_pay4 x12 x13 x0 x4 x8) (k0_pay5 x12 x13 x1 x5 x9) (k0_pay6 x12 x2)
        (k0_pay7 x13 x6) x10 x3 x7 x11 x14
      = Cert.LstmCell.out x0 x1 x2 x3 x4 x5 x6 x7 x8 x9 x10 x11 x12 x13 x14 := by
  funext j
  obtain ⟨p, q, rfl⟩ : ∃ (p : Fin 256) (q : Fin 512), j = ix2 p q := ⟨j 0, j 1, eq_ix2 j⟩
  rw [Cert.LstmCell.out_ix2]
  show Ideal.tanh (Ideal.logistic (Ideal.tanh (preVec x0 x4 x8 x12 x13 (ix2 p q)) * Ideal.logistic (preVec x1 x5 x9 x12 x13 (ix2 p q))
      + x14 (ix2 p q) * Ideal.logistic (preVec x2 x6 x10 x12 x13 (ix2 p q)))) * Ideal.logistic (preVec x3 x7 x11 x12 x13 (ix2 p q)) = _
  rw [preVec_apply, preVec_apply, preVec_apply, preVec_apply]
  rfl

end Cert.KernelIdeal.BlockCell

end
-- ==== Proof.CellArray.lean ====
/-
  From the grid points' blocks to the whole output array, at the exact instance.

  The grid is 8 × 8: point `(u, v)` holds rows `256·u … 256·u + 255` of the eight weight matrices and the four bias
  columns, columns `512·v … 512·v + 511` of the input and of the hidden state (with the whole contraction axis), and the
  `[256, 512]` block `(u, v)` of the cell state; it writes back block `(u, v)` of the output. The matrices the region finds
  are the arguments themselves (the conversions before the region change the format only, which over the extended
  reals is the identity). Since the cell is local in rows and columns (`LstmCell.outAt_band`), what point `(u, v)` writes
  back is block `(u, v)` of the cell of the whole arrays; the 64 blocks tile the `[2048, 4096]` output, so after the run the
  output array is that cell.
-/
import proofs.«180417_j42803644072258_2_alg».proof.Proof.Gen.KernelIdeal.Value
import proofs.«180417_j42803644072258_2_alg».proof.Proof.BlockCell
import Idealize.ShloMosaic.Lib.StableHlo.Run

noncomputable section

namespace Cert.KernelIdeal.CellArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The input as the region finds it is the argument: the conversion before the region changes the format only. -/
theorem V_main_v0 (c : Dev nD) : (V m c main_v0 : S2048x4096.Idx → EReal) = (m ((c : Thread nD τ).loc main_arg0)) := by
  dsimp only [Gen.V, Gen.hostOps0]; after_results; rfl
/-- The hidden state likewise. -/
theorem V_main_v1 (c : Dev nD) : (V m c main_v1 : S2048x4096.Idx → EReal) = (m ((c : Thread nD τ).loc main_arg1)) := by
  dsimp only [Gen.V, Gen.hostOps0]; after_results; rfl
/-- The eight weight matrices likewise. -/
theorem V_main_v2 (c : Dev nD) : (V m c main_v2 : S2048x2048.Idx → EReal) = (m ((c : Thread nD τ).loc main_arg3)) := by
  dsimp only [Gen.V, Gen.hostOps0]; after_results; rfl
theorem V_main_v3 (c : Dev nD) : (V m c main_v3 : S2048x2048.Idx → EReal) = (m ((c : Thread nD τ).loc main_arg4)) := by
  dsimp only [Gen.V, Gen.hostOps0]; after_results; rfl
theorem V_main_v4 (c : Dev nD) : (V m c main_v4 : S2048x2048.Idx → EReal) = (m ((c : Thread nD τ).loc main_arg5)) := by
  dsimp only [Gen.V, Gen.hostOps0]; after_results; rfl
theorem V_main_v5 (c : Dev nD) : (V m c main_v5 : S2048x2048.Idx → EReal) = (m ((c : Thread nD τ).loc main_arg6)) := by
  dsimp only [Gen.V, Gen.hostOps0]; after_results; rfl
theorem V_main_v6 (c : Dev nD) : (V m c main_v6 : S2048x2048.Idx → EReal) = (m ((c : Thread nD τ).loc main_arg7)) := by
  dsimp only [Gen.V, Gen.hostOps0]; after_results; rfl
theorem V_main_v7 (c : Dev nD) : (V m c main_v7 : S2048x2048.Idx → EReal) = (m ((c : Thread nD τ).loc main_arg8)) := by
  dsimp only [Gen.V, Gen.hostOps0]; after_results; rfl
theorem V_main_v8 (c : Dev nD) : (V m c main_v8 : S2048x2048.Idx → EReal) = (m ((c : Thread nD τ).loc main_arg9)) := by
  dsimp only [Gen.V, Gen.hostOps0]; after_results; rfl
theorem V_main_v9 (c : Dev nD) : (V m c main_v9 : S2048x2048.Idx → EReal) = (m ((c : Thread nD τ).loc main_arg10)) := by
  dsimp only [Gen.V, Gen.hostOps0]; after_results; rfl

/-! ## The cell of the argument arrays -/

/-- What the output array ends holding on core `c`: the cell of the argument arrays as launched. -/
def cellOf (c : Dev nD) : S2048x4096.Idx → EReal :=
  Cert.LstmCell.out (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg0))
    (m ((c : Thread nD τ).loc main_arg1))
    (m ((c : Thread nD τ).loc main_arg2))

/-! ## The grid's blocks -/

theorem hz : (![0, 0] : Fin 2 → Nat) = fun _ => 0 := funext fun a => by fin_cases a <;> rfl

/-- The printed index maps, decided over the 64 points: the weights' and biases' bands move with the output's row
    block and sit at column block 0 … -/
theorem row_facts : ∀ t : Fin cfg0.N,
    (win0_0.index t (0 : Fin 2) = win0_15.index t (0 : Fin 2) ∧ win0_0.index t (1 : Fin 2) = 0)
    ∧ (win0_1.index t (0 : Fin 2) = win0_15.index t (0 : Fin 2) ∧ win0_1.index t (1 : Fin 2) = 0)
    ∧ (win0_2.index t (0 : Fin 2) = win0_15.index t (0 : Fin 2) ∧ win0_2.index t (1 : Fin 2) = 0)
    ∧ (win0_3.index t (0 : Fin 2) = win0_15.index t (0 : Fin 2) ∧ win0_3.index t (1 : Fin 2) = 0)
    ∧ (win0_4.index t (0 : Fin 2) = win0_15.index t (0 : Fin 2) ∧ win0_4.index t (1 : Fin 2) = 0)
    ∧ (win0_5.index t (0 : Fin 2) = win0_15.index t (0 : Fin 2) ∧ win0_5.index t (1 : Fin 2) = 0)
    ∧ (win0_6.index t (0 : Fin 2) = win0_15.index t (0 : Fin 2) ∧ win0_6.index t (1 : Fin 2) = 0)
    ∧ (win0_7.index t (0 : Fin 2) = win0_15.index t (0 : Fin 2) ∧ win0_7.index t (1 : Fin 2) = 0)
    ∧ (win0_8.index t (0 : Fin 2) = win0_15.index t (0 : Fin 2) ∧ win0_8.index t (1 : Fin 2) = 0)
    ∧ (win0_9.index t (0 : Fin 2) = win0_15.index t (0 : Fin 2) ∧ win0_9.index t (1 : Fin 2) = 0)
    ∧ (win0_10.index t (0 : Fin 2) = win0_15.index t (0 : Fin 2) ∧ win0_10.index t (1 : Fin 2) = 0)
    ∧ (win0_11.index t (0 : Fin 2) = win0_15.index t (0 : Fin 2) ∧ win0_11.index t (1 : Fin 2) = 0) :=
  (by decide +kernel : ∀ t : Fin grid0.N, _)

/-- … the input's and the hidden state's bands sit at row block 0 and move with the output's column block, the cell
    state's block moves with the output's, and the output's block indices stay below 8. -/
theorem col_facts : ∀ t : Fin cfg0.N,
    (win0_12.index t (0 : Fin 2) = 0 ∧ win0_12.index t (1 : Fin 2) = win0_15.index t (1 : Fin 2))
    ∧ (win0_13.index t (0 : Fin 2) = 0 ∧ win0_13.index t (1 : Fin 2) = win0_15.index t (1 : Fin 2))
    ∧ (win0_14.index t (0 : Fin 2) = win0_15.index t (0 : Fin 2) ∧ win0_14.index t (1 : Fin 2) = win0_15.index t (1 : Fin 2))
    ∧ win0_15.index t (0 : Fin 2) ≤ 7 ∧ win0_15.index t (1 : Fin 2) ≤ 7 :=
  (by decide +kernel : ∀ t : Fin grid0.N, _)

/-- Every one of the 8 × 8 blocks of the output is some point's. -/
theorem block_onto : ∀ (u v : Fin 8), ∃ t : Fin cfg0.N, win0_15.index t = ![u.val, v.val] :=
  (by decide +kernel : ∀ (u v : Fin 8), ∃ t : Fin grid0.N, win0_15.index t = ![u.val, v.val])

/-- Row `p` of point `t`'s band, as a row of the whole arrays. -/
def rowOf (t : Fin cfg0.N) (p : Fin 256) : Fin 2048 :=
  ⟨win0_15.index t (0 : Fin 2) * 256 + p.val, by have := (col_facts t).2.2.2.1; have := p.isLt; omega⟩
/-- Column `q` of point `t`'s band, as a column of the whole arrays. -/
def colOf (t : Fin cfg0.N) (q : Fin 512) : Fin 4096 :=
  ⟨win0_15.index t (1 : Fin 2) * 512 + q.val, by have := (col_facts t).2.2.2.2; have := q.isLt; omega⟩

/-! ## Each block is a band of its array

Window `w`'s block at point `t` is its array read through the block's rectangle: a block's coordinate is block index ×
block size + the coordinate inside the block, and the decided index maps say which band that is. -/

theorem band_Wg (c : Dev nD) (t : Fin cfg0.N) (p : Fin 256) (f : Fin 2048) :
    iblk m c 0 t (ix2 p f) = (m ((c : Thread nD τ).loc main_arg3)) (ix2 (rowOf t p) f) := by
  obtain ⟨e0, e1⟩ := (row_facts t).1
  have hV : V m c main_v2 (((cfg0.win 0).blk t).view.emb (ix2 p f)) = V m c main_v2 (ix2 (rowOf t p) f) := by
    refine congrArg (V m c main_v2) ?_
    funext a; apply Fin.ext
    match a with
    | ⟨0, _⟩ => show win0_0.index t (0 : Fin 2) * 256 + 1 * p.val = win0_15.index t (0 : Fin 2) * 256 + p.val; omega
    | ⟨1, _⟩ => show win0_0.index t (1 : Fin 2) * 2048 + 1 * f.val = f.val; omega
  exact hV.trans (congrFun (V_main_v2 m c) _)

theorem band_Wi (c : Dev nD) (t : Fin cfg0.N) (p : Fin 256) (f : Fin 2048) :
    iblk m c 1 t (ix2 p f) = (m ((c : Thread nD τ).loc main_arg4)) (ix2 (rowOf t p) f) := by
  obtain ⟨e0, e1⟩ := (row_facts t).2.1
  have hV : V m c main_v3 (((cfg0.win 1).blk t).view.emb (ix2 p f)) = V m c main_v3 (ix2 (rowOf t p) f) := by
    refine congrArg (V m c main_v3) ?_
    funext a; apply Fin.ext
    match a with
    | ⟨0, _⟩ => show win0_1.index t (0 : Fin 2) * 256 + 1 * p.val = win0_15.index t (0 : Fin 2) * 256 + p.val; omega
    | ⟨1, _⟩ => show win0_1.index t (1 : Fin 2) * 2048 + 1 * f.val = f.val; omega
  exact hV.trans (congrFun (V_main_v3 m c) _)

theorem band_Wf (c : Dev nD) (t : Fin cfg0.N) (p : Fin 256) (f : Fin 2048) :
    iblk m c 2 t (ix2 p f) = (m ((c : Thread nD τ).loc main_arg5)) (ix2 (rowOf t p) f) := by
  obtain ⟨e0, e1⟩ := (row_facts t).2.2.1
  have hV : V m c main_v4 (((cfg0.win 2).blk t).view.emb (ix2 p f)) = V m c main_v4 (ix2 (rowOf t p) f) := by
    refine congrArg (V m c main_v4) ?_
    funext a; apply Fin.ext
    match a with
    | ⟨0, _⟩ => show win0_2.index t (0 : Fin 2) * 256 + 1 * p.val = win0_15.index t (0 : Fin 2) * 256 + p.val; omega
    | ⟨1, _⟩ => show win0_2.index t (1 : Fin 2) * 2048 + 1 * f.val = f.val; omega
  exact hV.trans (congrFun (V_main_v4 m c) _)

theorem band_Wo (c : Dev nD) (t : Fin cfg0.N) (p : Fin 256) (f : Fin 2048) :
    iblk m c 3 t (ix2 p f) = (m ((c : Thread nD τ).loc main_arg6)) (ix2 (rowOf t p) f) := by
  obtain ⟨e0, e1⟩ := (row_facts t).2.2.2.1
  have hV : V m c main_v5 (((cfg0.win 3).blk t).view.emb (ix2 p f)) = V m c main_v5 (ix2 (rowOf t p) f) := by
    refine congrArg (V m c main_v5) ?_
    funext a; apply Fin.ext
    match a with
    | ⟨0, _⟩ => show win0_3.index t (0 : Fin 2) * 256 + 1 * p.val = win0_15.index t (0 : Fin 2) * 256 + p.val; omega
    | ⟨1, _⟩ => show win0_3.index t (1 : Fin 2) * 2048 + 1 * f.val = f.val; omega
  exact hV.trans (congrFun (V_main_v5 m c) _)

theorem band_Ug (c : Dev nD) (t : Fin cfg0.N) (p : Fin 256) (f : Fin 2048) :
    iblk m c 4 t (ix2 p f) = (m ((c : Thread nD τ).loc main_arg7)) (ix2 (rowOf t p) f) := by
  obtain ⟨e0, e1⟩ := (row_facts t).2.2.2.2.1
  have hV : V m c main_v6 (((cfg0.win 4).blk t).view.emb (ix2 p f)) = V m c main_v6 (ix2 (rowOf t p) f) := by
    refine congrArg (V m c main_v6) ?_
    funext a; apply Fin.ext
    match a with
    | ⟨0, _⟩ => show win0_4.index t (0 : Fin 2) * 256 + 1 * p.val = win0_15.index t (0 : Fin 2) * 256 + p.val; omega
    | ⟨1, _⟩ => show win0_4.index t (1 : Fin 2) * 2048 + 1 * f.val = f.val; omega
  exact hV.trans (congrFun (V_main_v6 m c) _)

theorem band_Ui (c : Dev nD) (t : Fin cfg0.N) (p : Fin 256) (f : Fin 2048) :
    iblk m c 5 t (ix2 p f) = (m ((c : Thread nD τ).loc main_arg8)) (ix2 (rowOf t p) f) := by
  obtain ⟨e0, e1⟩ := (row_facts t).2.2.2.2.2.1
  have hV : V m c main_v7 (((cfg0.win 5).blk t).view.emb (ix2 p f)) = V m c main_v7 (ix2 (rowOf t p) f) := by
    refine congrArg (V m c main_v7) ?_
    funext a; apply Fin.ext
    match a with
    | ⟨0, _⟩ => show win0_5.index t (0 : Fin 2) * 256 + 1 * p.val = win0_15.index t (0 : Fin 2) * 256 + p.val; omega
    | ⟨1, _⟩ => show win0_5.index t (1 : Fin 2) * 2048 + 1 * f.val = f.val; omega
  exact hV.trans (congrFun (V_main_v7 m c) _)

theorem band_Uf (c : Dev nD) (t : Fin cfg0.N) (p : Fin 256) (f : Fin 2048) :
    iblk m c 6 t (ix2 p f) = (m ((c : Thread nD τ).loc main_arg9)) (ix2 (rowOf t p) f) := by
  obtain ⟨e0, e1⟩ := (row_facts t).2.2.2.2.2.2.1
  have hV : V m c main_v8 (((cfg0.win 6).blk t).view.emb (ix2 p f)) = V m c main_v8 (ix2 (rowOf t p) f) := by
    refine congrArg (V m c main_v8) ?_
    funext a; apply Fin.ext
    match a with
    | ⟨0, _⟩ => show win0_6.index t (0 : Fin 2) * 256 + 1 * p.val = win0_15.index t (0 : Fin 2) * 256 + p.val; omega
    | ⟨1, _⟩ => show win0_6.index t (1 : Fin 2) * 2048 + 1 * f.val = f.val; omega
  exact hV.trans (congrFun (V_main_v8 m c) _)

theorem band_Uo (c : Dev nD) (t : Fin cfg0.N) (p : Fin 256) (f : Fin 2048) :
    iblk m c 7 t (ix2 p f) = (m ((c : Thread nD τ).loc main_arg10)) (ix2 (rowOf t p) f) := by
  obtain ⟨e0, e1⟩ := (row_facts t).2.2.2.2.2.2.2.1
  have hV : V m c main_v9 (((cfg0.win 7).blk t).view.emb (ix2 p f)) = V m c main_v9 (ix2 (rowOf t p) f) := by
    refine congrArg (V m c main_v9) ?_
    funext a; apply Fin.ext
    match a with
    | ⟨0, _⟩ => show win0_7.index t (0 : Fin 2) * 256 + 1 * p.val = win0_15.index t (0 : Fin 2) * 256 + p.val; omega
    | ⟨1, _⟩ => show win0_7.index t (1 : Fin 2) * 2048 + 1 * f.val = f.val; omega
  exact hV.trans (congrFun (V_main_v9 m c) _)

theorem band_bg (c : Dev nD) (t : Fin cfg0.N) (p : Fin 256) :
    iblk m c 8 t (ix2 p (0 : Fin 1)) = (m ((c : Thread nD τ).loc main_arg11)) (ix2 (rowOf t p) (0 : Fin 1)) := by
  obtain ⟨e0, e1⟩ := (row_facts t).2.2.2.2.2.2.2.2.1
  have hV : V m c main_arg11 (((cfg0.win 8).blk t).view.emb (ix2 p (0 : Fin 1))) = V m c main_arg11 (ix2 (rowOf t p) (0 : Fin 1)) := by
    refine congrArg (V m c main_arg11) ?_
    funext a; apply Fin.ext
    match a with
    | ⟨0, _⟩ => show win0_8.index t (0 : Fin 2) * 256 + 1 * p.val = win0_15.index t (0 : Fin 2) * 256 + p.val; omega
    | ⟨1, _⟩ => show win0_8.index t (1 : Fin 2) * 1 + 1 * 0 = 0; omega
  exact hV.trans (congrFun (Gen.V_main_arg11 m c) _)

theorem band_bi (c : Dev nD) (t : Fin cfg0.N) (p : Fin 256) :
    iblk m c 9 t (ix2 p (0 : Fin 1)) = (m ((c : Thread nD τ).loc main_arg12)) (ix2 (rowOf t p) (0 : Fin 1)) := by
  obtain ⟨e0, e1⟩ := (row_facts t).2.2.2.2.2.2.2.2.2.1
  have hV : V m c main_arg12 (((cfg0.win 9).blk t).view.emb (ix2 p (0 : Fin 1))) = V m c main_arg12 (ix2 (rowOf t p) (0 : Fin 1)) := by
    refine congrArg (V m c main_arg12) ?_
    funext a; apply Fin.ext
    match a with
    | ⟨0, _⟩ => show win0_9.index t (0 : Fin 2) * 256 + 1 * p.val = win0_15.index t (0 : Fin 2) * 256 + p.val; omega
    | ⟨1, _⟩ => show win0_9.index t (1 : Fin 2) * 1 + 1 * 0 = 0; omega
  exact hV.trans (congrFun (Gen.V_main_arg12 m c) _)

theorem band_bf (c : Dev nD) (t : Fin cfg0.N) (p : Fin 256) :
    iblk m c 10 t (ix2 p (0 : Fin 1)) = (m ((c : Thread nD τ).loc main_arg13)) (ix2 (rowOf t p) (0 : Fin 1)) := by
  obtain ⟨e0, e1⟩ := (row_facts t).2.2.2.2.2.2.2.2.2.2.1
  have hV : V m c main_arg13 (((cfg0.win 10).blk t).view.emb (ix2 p (0 : Fin 1))) = V m c main_arg13 (ix2 (rowOf t p) (0 : Fin 1)) := by
    refine congrArg (V m c main_arg13) ?_
    funext a; apply Fin.ext
    match a with
    | ⟨0, _⟩ => show win0_10.index t (0 : Fin 2) * 256 + 1 * p.val = win0_15.index t (0 : Fin 2) * 256 + p.val; omega
    | ⟨1, _⟩ => show win0_10.index t (1 : Fin 2) * 1 + 1 * 0 = 0; omega
  exact hV.trans (congrFun (Gen.V_main_arg13 m c) _)

theorem band_bo (c : Dev nD) (t : Fin cfg0.N) (p : Fin 256) :
    iblk m c 11 t (ix2 p (0 : Fin 1)) = (m ((c : Thread nD τ).loc main_arg14)) (ix2 (rowOf t p) (0 : Fin 1)) := by
  obtain ⟨e0, e1⟩ := (row_facts t).2.2.2.2.2.2.2.2.2.2.2
  have hV : V m c main_arg14 (((cfg0.win 11).blk t).view.emb (ix2 p (0 : Fin 1))) = V m c main_arg14 (ix2 (rowOf t p) (0 : Fin 1)) := by
    refine congrArg (V m c main_arg14) ?_
    funext a; apply Fin.ext
    match a with
    | ⟨0, _⟩ => show win0_11.index t (0 : Fin 2) * 256 + 1 * p.val = win0_15.index t (0 : Fin 2) * 256 + p.val; omega
    | ⟨1, _⟩ => show win0_11.index t (1 : Fin 2) * 1 + 1 * 0 = 0; omega
  exact hV.trans (congrFun (Gen.V_main_arg14 m c) _)

theorem band_x (c : Dev nD) (t : Fin cfg0.N) (f : Fin 2048) (q : Fin 512) :
    iblk m c 12 t (ix2 f q) = (m ((c : Thread nD τ).loc main_arg0)) (ix2 f (colOf t q)) := by
  obtain ⟨e0, e1⟩ := (col_facts t).1
  have hV : V m c main_v0 (((cfg0.win 12).blk t).view.emb (ix2 f q)) = V m c main_v0 (ix2 f (colOf t q)) := by
    refine congrArg (V m c main_v0) ?_
    funext a; apply Fin.ext
    match a with
    | ⟨0, _⟩ => show win0_12.index t (0 : Fin 2) * 2048 + 1 * f.val = f.val; omega
    | ⟨1, _⟩ => show win0_12.index t (1 : Fin 2) * 512 + 1 * q.val = win0_15.index t (1 : Fin 2) * 512 + q.val; omega
  exact hV.trans (congrFun (V_main_v0 m c) _)

theorem band_h (c : Dev nD) (t : Fin cfg0.N) (f : Fin 2048) (q : Fin 512) :
    iblk m c 13 t (ix2 f q) = (m ((c : Thread nD τ).loc main_arg1)) (ix2 f (colOf t q)) := by
  obtain ⟨e0, e1⟩ := (col_facts t).2.1
  have hV : V m c main_v1 (((cfg0.win 13).blk t).view.emb (ix2 f q)) = V m c main_v1 (ix2 f (colOf t q)) := by
    refine congrArg (V m c main_v1) ?_
    funext a; apply Fin.ext
    match a with
    | ⟨0, _⟩ => show win0_13.index t (0 : Fin 2) * 2048 + 1 * f.val = f.val; omega
    | ⟨1, _⟩ => show win0_13.index t (1 : Fin 2) * 512 + 1 * q.val = win0_15.index t (1 : Fin 2) * 512 + q.val; omega
  exact hV.trans (congrFun (V_main_v1 m c) _)

theorem band_c (c : Dev nD) (t : Fin cfg0.N) (p : Fin 256) (q : Fin 512) :
    iblk m c 14 t (ix2 p q) = (m ((c : Thread nD τ).loc main_arg2)) (ix2 (rowOf t p) (colOf t q)) := by
  obtain ⟨e0, e1⟩ := (col_facts t).2.2.1
  have hV : V m c main_arg2 (((cfg0.win 14).blk t).view.emb (ix2 p q)) = V m c main_arg2 (ix2 (rowOf t p) (colOf t q)) := by
    refine congrArg (V m c main_arg2) ?_
    funext a; apply Fin.ext
    match a with
    | ⟨0, _⟩ => show win0_14.index t (0 : Fin 2) * 256 + 1 * p.val = win0_15.index t (0 : Fin 2) * 256 + p.val; omega
    | ⟨1, _⟩ => show win0_14.index t (1 : Fin 2) * 512 + 1 * q.val = win0_15.index t (1 : Fin 2) * 512 + q.val; omega
  exact hV.trans (congrFun (Gen.V_main_arg2 m c) _)

/-- The output's block at point `t` sits at rows `rowOf t`, columns `colOf t`. -/
theorem emb_out (t : Fin cfg0.N) (p : Fin 256) (q : Fin 512) :
    ((cfg0.win 15).blk t).view.emb (ix2 p q) = ix2 (rowOf t p) (colOf t q) := by
  funext a; apply Fin.ext
  match a with
  | ⟨0, _⟩ => show win0_15.index t (0 : Fin 2) * 256 + 1 * p.val = win0_15.index t (0 : Fin 2) * 256 + p.val; omega
  | ⟨1, _⟩ => show win0_15.index t (1 : Fin 2) * 512 + 1 * q.val = win0_15.index t (1 : Fin 2) * 512 + q.val; omega

/-! ## What a point writes back, the cover, and the array after the run -/

/-- WHAT POINT `t` WRITES BACK is block `t` of the cell of the argument arrays: the stored value is the cell of the point's
    blocks, the blocks are bands of the arrays, and the cell is local in rows and columns. -/
theorem flushed_eq (c : Dev nD) (t : Fin cfg0.N) :
    (dats m 0 c).flushed 15 t = ((cfg0.win 15).blk t).view.read (Elt Ideal) (cellOf m c) := by
  rw [Value.flushed15]
  unfold out0_15
  rw [View.canon_unit_zero hz]
  simp only [View.ld_unit_zero (S := S256x2048) hz, View.ld_unit_zero (S := S256x1) hz,
    View.ld_unit_zero (S := S2048x512) hz, View.ld_unit_zero (S := S256x512) hz]
  rw [Cert.KernelIdeal.BlockCell.stored_eq]
  funext j
  obtain ⟨p, q, rfl⟩ : ∃ (p : Fin 256) (q : Fin 512), j = ix2 p q := ⟨j 0, j 1, eq_ix2 j⟩
  show Cert.LstmCell.outAt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q = cellOf m c (((cfg0.win 15).blk t).view.emb (ix2 p q))
  rw [emb_out t p q]
  exact Cert.LstmCell.outAt_band (rowOf t) (colOf t)
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg0))
    (m ((c : Thread nD τ).loc main_arg1))
    (m ((c : Thread nD τ).loc main_arg2))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (band_Wg m c t) (band_Wi m c t) (band_Wf m c t) (band_Wo m c t) (band_Ug m c t) (band_Ui m c t) (band_Uf m c t) (band_Uo m c t) (band_bg m c t) (band_bi m c t) (band_bf m c t) (band_bo m c t) (band_x m c t) (band_h m c t) (band_c m c t) p q

/-- An index of the output is in point `t`'s block iff each coordinate is in the block's range on its axis. -/
theorem mem_blk (t : Fin cfg0.N) (i : S2048x4096.Idx) :
    i ∈ ((cfg0.win 15).blk t).view.set ↔ ∀ a : Fin 2, win0_15.index t a * S256x512.size a ≤ (i a).val
      ∧ (i a).val < win0_15.index t a * S256x512.size a + S256x512.size a := by
  show i ∈ ((View.whole main_v10).slice (win0_15.rect t)).set ↔ _
  rw [View.set_slice_whole, Rect.mem_set_unit]
  exact Iff.rfl

/-- The 64 blocks tile the output: index `(r, q)` is in the block of the point at row block `r / 256`, column block
    `q / 512`. -/
theorem cover (i : S2048x4096.Idx) :
    ∃ t : Fin cfg0.N, (cfg0.win 15).flush t = true ∧ i ∈ ((cfg0.win 15).blk t).view.set := by
  have hi0 : (i 0).val < 2048 := (i 0).isLt
  have hi1 : (i 1).val < 4096 := (i 1).isLt
  obtain ⟨t, ht⟩ := block_onto ⟨(i 0).val / 256, by omega⟩ ⟨(i 1).val / 512, by omega⟩
  have q0 : win0_15.index t (0 : Fin 2) = (i 0).val / 256 := congrFun ht 0
  have q1 : win0_15.index t (1 : Fin 2) = (i 1).val / 512 := congrFun ht 1
  refine ⟨t, flush0_15 t, ?_⟩
  rw [mem_blk]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 512 ≤ (i 1).val ∧ (i 1).val < win0_15.index t (1 : Fin 2) * 512 + 512; omega

/-- THE OUTPUT ARRAY after the run is the cell of the argument arrays. -/
theorem final (c : Dev nD) : (dats m 0 c).arrAt 15 cfg0.N = cellOf m c :=
  (dats m 0 c).arrAt_eq_of_cover 15 (cellOf m c) (fun t _ => flushed_eq m c t) cover

/-- The kernel's run re-posted: the output at the cell of the argument arrays, the arguments unchanged. -/
theorem run : θ_run defs (onTc (τ := τ) (main (F := Ideal))) ⟨m, fun _ => 0, ρ⟩ fun r => ∀ c : Dev nD,
      r.2.mem ((c : Thread nD τ).loc main_v10) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.CellArray

end
-- ==== Proof.RefCell.lean ====
/-
  The reference, at the exact instance, is the cell of the whole arrays.

  The reference computes each gate's pre-activation as two `[2048, 2048] · [2048, 4096]` products, added, plus the bias
  column `[2048, 1]` repeated along the columns, and each sigmoid as the quotient of the word of one by one plus the
  exponential of the negated argument. Over the extended reals the product is the plain sum over the contraction axis,
  so a pre-activation at `(r, q)` is `LstmCell.pre` of the whole arrays; the spelt sigmoid is `σ`; and the result is
  `LstmCell.out` of the argument arrays.
-/
import proofs.«180417_j42803644072258_2_alg».proof.Proof.Gen.ReferenceIdeal.Read
import proofs.«180417_j42803644072258_2_alg».proof.Proof.LibLstmCell

noncomputable section

open scoped BigOperators

namespace Cert.ReferenceIdeal.RefCell

open Cert.ReferenceIdeal Cert.ReferenceIdeal.Gen Idealize.ShloMosaic Idealize.ShloMosaic.ValueIdx

/-- A gate's pre-activation as the reference computes it: its two products, added, plus the bias column repeated along
    the columns (the stages the reference's read-back names for its first gate; the other gates' stages are the same
    functions of their own operands). -/
def preRef (W U : FVec Ideal S2048x2048 .f32) (bias : FVec Ideal S2048x1 .f32) (X H : FVec Ideal S2048x4096 .f32) :
    FVec Ideal S2048x4096 .f32 :=
  addf (addf (Read.val_main_v0 (F := Ideal) X W) (Read.val_main_v0 (F := Ideal) H U)) (Read.val_main_v3 (F := Ideal) bias)

/-- The reference's pre-activation at `(r, q)` is the cell's, of the whole arrays. -/
theorem preRef_apply (W U : FVec Ideal S2048x2048 .f32) (bias : FVec Ideal S2048x1 .f32) (X H : FVec Ideal S2048x4096 .f32)
    (r : Fin 2048) (q : Fin 4096) : preRef W U bias X H (ix2 r q) = Cert.LstmCell.pre W U bias X H r q := by
  have el : ∀ f : Fin 2048, Read.lidx_main_v0 (ix2 r q) f = ix2 r f := fun f =>
    funext fun a => Fin.ext (by match a with | ⟨0, _⟩ => rfl | ⟨1, _⟩ => rfl)
  have er : ∀ f : Fin 2048, Read.ridx_main_v0 (ix2 r q) f = ix2 f q := fun f =>
    funext fun a => Fin.ext (by match a with | ⟨0, _⟩ => rfl | ⟨1, _⟩ => rfl)
  have eb : Read.idx_main_v3 (ix2 r q) = ix2 r (0 : Fin 1) :=
    funext fun a => Fin.ext (by match a with | ⟨0, _⟩ => rfl | ⟨1, _⟩ => rfl)
  unfold preRef Cert.LstmCell.pre
  rw [addf_apply, addf_apply, Read.val_main_v0_apply, Read.val_main_v0_apply, Read.val_main_v3_apply]
  simp only [el, er, eb]

/-- The sigmoid as the reference spells it: the word of one over one plus the exponential of the negation. -/
def sigRef (v : FVec Ideal S2048x4096 .f32) : FVec Ideal S2048x4096 .f32 :=
  Host.divf (broadcastInDim S2048x4096 ![] bcast_S_S2048x4096 (constant (F := Ideal) S_ .f32 0x3F800000#32))
    (addf (broadcastInDim S2048x4096 ![] bcast_S_S2048x4096 (constant (F := Ideal) S_ .f32 0x3F800000#32))
      (Host.exp (Host.negf v)))

/-- At an index it is `σ` of the element. -/
theorem sigRef_apply (v : FVec Ideal S2048x4096 .f32) (i : S2048x4096.Idx) : sigRef v i = Ideal.logistic (v i) :=
  Cert.LstmCell.sigmoid_spelt (v i)

/-- THE REFERENCE'S RESULT is the cell of the argument arrays: `x3 … x6` the input matrices (gates g, i, f, o), `x7 … x10`
    the recurrent matrices, `x11 … x14` the bias columns, `x0` the input, `x1` the hidden state, `x2` the cell state. -/
theorem result_eq (x0 x1 x2 : FVec Ideal S2048x4096 .f32) (x3 x4 x5 x6 x7 x8 x9 x10 : FVec Ideal S2048x2048 .f32)
    (x11 x12 x13 x14 : FVec Ideal S2048x1 .f32) :
    Read.val_main_v49 (F := Ideal) x0 x1 x2 x3 x4 x5 x6 x7 x8 x9 x10 x11 x12 x13 x14
      = Cert.LstmCell.out x3 x4 x5 x6 x7 x8 x9 x10 x11 x12 x13 x14 x0 x1 x2 := by
  have hs : Read.val_main_v49 (F := Ideal) x0 x1 x2 x3 x4 x5 x6 x7 x8 x9 x10 x11 x12 x13 x14
      = mulf (Host.tanh (sigRef (addf (mulf (Host.tanh (preRef x3 x7 x11 x0 x1)) (sigRef (preRef x4 x8 x12 x0 x1)))
          (mulf x2 (sigRef (preRef x5 x9 x13 x0 x1)))))) (sigRef (preRef x6 x10 x14 x0 x1)) := rfl
  rw [hs]
  funext j
  obtain ⟨r, q, rfl⟩ : ∃ (r : Fin 2048) (q : Fin 4096), j = ix2 r q := ⟨j 0, j 1, eq_ix2 j⟩
  rw [Cert.LstmCell.out_ix2]
  show Ideal.tanh (sigRef (addf (mulf (Host.tanh (preRef x3 x7 x11 x0 x1)) (sigRef (preRef x4 x8 x12 x0 x1)))
      (mulf x2 (sigRef (preRef x5 x9 x13 x0 x1)))) (ix2 r q)) * sigRef (preRef x6 x10 x14 x0 x1) (ix2 r q) = _
  rw [sigRef_apply, sigRef_apply]
  show Ideal.tanh (Ideal.logistic (Ideal.tanh (preRef x3 x7 x11 x0 x1 (ix2 r q)) * sigRef (preRef x4 x8 x12 x0 x1) (ix2 r q)
      + x2 (ix2 r q) * sigRef (preRef x5 x9 x13 x0 x1) (ix2 r q))) * Ideal.logistic (preRef x6 x10 x14 x0 x1 (ix2 r q)) = _
  rw [sigRef_apply, sigRef_apply, preRef_apply, preRef_apply, preRef_apply, preRef_apply]
  rfl

end Cert.ReferenceIdeal.RefCell

end
-- ==== Proof.lean ====
/-
  The kernel — one step of a long short-term memory cell over `[2048, 4096]` column batches, tiled 8 × 8 with the whole
  contraction axis at every grid point and its matrix operands converted to a shorter format before the region —
  against the plain reference: equal over the extended reals.

  Both sides are one function of the argument arrays, `LstmCell.out`: at row `r`, column `q`,
  `tanh (σ (g · i + c · f)) · o` with each gate's pre-activation `(∑ W r · x · q + ∑ U r · h · q) + bias r`. The reference is
  that function because its products are plain sums and its spelt sigmoid is `σ` (`RefCell.result_eq`); the kernel is
  that function because each grid point stores the cell of its blocks (`BlockCell.stored_eq`), the blocks are bands of
  the arrays, the cell is local in rows and columns, and the blocks tile the output (`CellArray.run`). No law of the
  extended reals beyond reading both sides index by index is used, so the inputs' finiteness is not needed for the
  values. The format conversions are the identity over the extended reals, and the idealization rewrote nothing.
-/
import proofs.«180417_j42803644072258_2_alg».proof.Defs
import proofs.«180417_j42803644072258_2_alg».proof.Proof.Gen.Kernel
import proofs.«180417_j42803644072258_2_alg».proof.Proof.Gen.Kernel.Frame
import proofs.«180417_j42803644072258_2_alg».proof.Proof.Gen.KernelIdeal
import proofs.«180417_j42803644072258_2_alg».proof.Proof.Gen.KernelIdeal.Frame
import proofs.«180417_j42803644072258_2_alg».proof.Proof.Gen.KernelIdeal.Value
import proofs.«180417_j42803644072258_2_alg».proof.Proof.Gen.ReferenceIdeal
import proofs.«180417_j42803644072258_2_alg».proof.Proof.Gen.ReferenceIdeal.Run
import proofs.«180417_j42803644072258_2_alg».proof.Proof.Gen.ReferenceIdeal.Read
import proofs.«180417_j42803644072258_2_alg».proof.Proof.Gen.Pre_finite_inputs
import proofs.«180417_j42803644072258_2_alg».proof.Proof.CellArray
import proofs.«180417_j42803644072258_2_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the output at the cell of the kernel's argument arrays: the kernel by `CellArray.run`, the
    reference by its run, `RefCell.result_eq` and the arguments' agreement. -/
theorem algebraic : Cert.algebraic_KernelIdeal_ReferenceIdeal := by
  intro m ρ m' ρ' _ hagree
  refine ⟨fun c => Cert.KernelIdeal.CellArray.cellOf m c, Cert.KernelIdeal.CellArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v49_eq, Cert.ReferenceIdeal.RefCell.result_eq,
    a0, a1, a2, a3, a4, a5, a6, a7, a8, a9, a10, a11, a12, a13, a14]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
